-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x1024, .bf16⟩
  | .hbm, ⟨11, _⟩ => ⟨S8192x1024, .bf16⟩
  | .hbm, ⟨12, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Dist.lean ====
/-
  The pairwise Euclidean distance matrix of the rows of two real matrices, written the way both programs compute it.
  For `x`, `y` of shape 8192 × 1024 over the extended reals, entry `(r, s)` of the 8192 × 8192 result is
      sqrt (max ((‖x_r‖² + ‖y_s‖²) − 2 · ⟨x_r, y_s⟩) 0),
  where ‖x_r‖² is the float zero plus the sum over `k` of `x r k · x r k` (a row reduction started from zero) and
  ⟨x_r, y_s⟩ is the sum over `k` of `x r k · y s k`. The two float literals (the factor 2 and the clamp 0) are kept
  as their words: both programs carry the same words, so they are never evaluated.
  Nothing here depends on a program: only the extended reals and indices built from coordinates.
-/
import Idealize.ShloMosaic.PureOps.Ideal
import Idealize.ShloMosaic.Lib.ValueIdx

noncomputable section

namespace Cert.Dist

open Idealize.ShloMosaic Idealize.ShloMosaic.ValueIdx

/-- A matrix of extended reals with `a` rows and `b` columns. -/
abbrev Mat (a b : ℕ) : Type := FVec Ideal (⟨2, ![a, b]⟩ : Shape) .f32

/-- The squared norm of row `r`: the float zero plus the sum of the squares of the row's entries. -/
def normSq (x : Mat 8192 1024) (r : Fin 8192) : EReal :=
  Ideal.ofBits .f32 0x00000000#32 + ∑ k : Fin 1024, x (ix2 r k) * x (ix2 r k)

/-- The inner product of row `r` of `x` with row `s` of `y`. -/
def inner (x y : Mat 8192 1024) (r s : Fin 8192) : EReal :=
  ∑ k : Fin 1024, x (ix2 r k) * y (ix2 s k)

/-- One entry of the distance matrix from the two squared norms and the inner product:
    `sqrt (max ((n + n') − 2 · p) 0)`. -/
def entry (n n' p : EReal) : EReal :=
  Ideal.sqrt (max ((n + n') - Ideal.ofBits .f32 0x40000000#32 * p) (Ideal.ofBits .f32 0x00000000#32))

/-- The distance matrix: entry `(r, s)` from ‖x_r‖², ‖y_s‖² and ⟨x_r, y_s⟩. -/
def dist (x y : Mat 8192 1024) : Mat 8192 8192 := fun i =>
  entry (normSq x (i 0)) (normSq y (i 1)) (inner x y (i 0) (i 1))

theorem dist_ix2 (x y : Mat 8192 1024) (r s : Fin 8192) :
    dist x y (ix2 r s) = entry (normSq x r) (normSq y s) (inner x y r s) := rfl

end Cert.Dist

end
-- ==== Proof.RefDist.lean ====
/-
  The reference computes the distance matrix. Its last stage, read at an index `i = (r, s)` one operation at a time,
  is `sqrt (max ((n_r + n'_s) − 2 · p_rs) 0)`: the two row reductions are read at row `r` of `x` and row `s` of `y`
  (the column of squared norms is broadcast along rows, the row of squared norms down columns), and the host
  `dot_general` contracts the second axis of both operands, so its entry `(r, s)` is the sum over `k` of
  `x r k · y s k`. Only the composed index functions have to be identified with `(r, k)` and `(s, k)`.
-/
import proofs.«154576_j46308337386063_2_alg».proof.Proof.Gen.ReferenceIdeal.Read
import proofs.«154576_j46308337386063_2_alg».proof.Proof.Dist

noncomputable section

namespace Cert.RefDist

open Idealize.ShloMosaic Idealize.ShloMosaic.ValueIdx Cert.ReferenceIdeal Cert.ReferenceIdeal.Read Cert.Dist

/-- The kept column of squared row norms of `x`, at `(r, ·)`: the squared norm of row `r`. -/
theorem colNorm (x : Mat 8192 1024) (r : Fin 8192) (u : Fin 1) : val_main_v2 (F := Ideal) x (ix2 r u) = normSq x r := by
  have ex : ∀ k : Fin 1024, idx_main_v1 (idx_main_v2 (ix2 r u)) k = ix2 r k := fun k =>
    funext fun a => Fin.ext (by match a with | ⟨0, _⟩ => rfl | ⟨1, _⟩ => rfl)
  rw [val_main_v2_apply, val_main_v1_apply]
  simp only [val_main_v0_apply, val_main_cst_apply, ex, Ideal.mulf_def, Ideal.ofBits_def]
  rfl

/-- The kept row of squared row norms of `y`, at `(·, s)`: the squared norm of row `s`. -/
theorem rowNorm (y : Mat 8192 1024) (s : Fin 8192) (u : Fin 1) : val_main_v5 (F := Ideal) y (ix2 u s) = normSq y s := by
  have ey : ∀ k : Fin 1024, idx_main_v4 (idx_main_v5 (ix2 u s)) k = ix2 s k := fun k =>
    funext fun a => Fin.ext (by match a with | ⟨0, _⟩ => rfl | ⟨1, _⟩ => rfl)
  rw [val_main_v5_apply, val_main_v4_apply]
  simp only [val_main_v3_apply, val_main_cst_0_apply, ey, Ideal.mulf_def, Ideal.ofBits_def]
  rfl

/-- The same at any index of the column whose row coordinate is `r`. -/
theorem colNorm_at (x : Mat 8192 1024) (z : S8192x1.Idx) (r : Fin 8192) (h : (z 0).val = r.val) :
    val_main_v2 (F := Ideal) x z = normSq x r := by
  obtain ⟨r', u, rfl⟩ : ∃ (r' : Fin 8192) (u : Fin 1), z = ix2 r' u := ⟨z 0, z 1, eq_ix2 z⟩
  obtain rfl : r' = r := Fin.ext h
  exact colNorm x r' u

/-- The same at any index of the row whose column coordinate is `s`. -/
theorem rowNorm_at (y : Mat 8192 1024) (z : S1x8192.Idx) (s : Fin 8192) (h : (z 1).val = s.val) :
    val_main_v5 (F := Ideal) y z = normSq y s := by
  obtain ⟨u, s', rfl⟩ : ∃ (u : Fin 1) (s' : Fin 8192), z = ix2 u s' := ⟨z 0, z 1, eq_ix2 z⟩
  obtain rfl : s' = s := Fin.ext h
  exact rowNorm y s' u

/-- The reference's result, as a function of its two arguments, is the distance matrix. -/
theorem stage_eq_dist (x y : Mat 8192 1024) : val_main_v15 (F := Ideal) x y = dist x y := by
  funext i
  -- row `r = i 0` of `x`, through the broadcast of the kept column and the reduction along the second axis
  have ex : ∀ k : Fin 1024, idx_main_v1 (idx_main_v2 (idx_main_v7 i)) k = ix2 (i 0) k := fun k =>
    funext fun a => Fin.ext (by match a with | ⟨0, _⟩ => rfl | ⟨1, _⟩ => rfl)
  -- row `s = i 1` of `y`, through the broadcast of the kept row and the same reduction
  have ey : ∀ k : Fin 1024, idx_main_v4 (idx_main_v5 (idx_main_v8 i)) k = ix2 (i 1) k := fun k =>
    funext fun a => Fin.ext (by match a with | ⟨0, _⟩ => rfl | ⟨1, _⟩ => rfl)
  -- the two operand indices of the contraction
  have el : ∀ k : Fin 1024, lidx_main_v6 i k = ix2 (i 0) k := fun k =>
    funext fun a => Fin.ext (by match a with | ⟨0, _⟩ => rfl | ⟨1, _⟩ => rfl)
  have er : ∀ k : Fin 1024, ridx_main_v6 i k = ix2 (i 1) k := fun k =>
    funext fun a => Fin.ext (by match a with | ⟨0, _⟩ => rfl | ⟨1, _⟩ => rfl)
  rw [val_main_v15_apply, val_main_v14_apply, val_main_v12_apply, val_main_v9_apply, val_main_v7_apply,
    val_main_v2_apply, val_main_v1_apply, val_main_v8_apply, val_main_v5_apply, val_main_v4_apply,
    val_main_v11_apply, val_main_v10_apply, val_main_v6_apply, val_main_v13_apply]
  simp only [val_main_v0_apply, val_main_v3_apply, val_main_cst_apply, val_main_cst_0_apply, val_main_cst_1_apply,
    val_main_cst_2_apply, ex, ey, el, er, Ideal.mulf_def, Ideal.addf_def, Ideal.subf_def, Ideal.maximumf_def,
    Ideal.hostUnary_sqrt_def, Ideal.ofBits_def]
  rfl

end Cert.RefDist

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.BodyDist.lean ====
/-
  What the kernel body stores, at one position of its 1024 × 1024 block. From the four loaded blocks — a 1024 × 1024
  block `a` of rows of `x`, a 1024 × 1024 block `b` of rows of `y`, the 1024 × 1 column `u` of squared norms of those rows
  of `x` and the 1 × 1024 row `v` of squared norms of those rows of `y` — position `(p, q)` of the stored value is
      sqrt (max ((u p + v q) − 2 · Σ_k a p k · b q k) 0):
  the matrix product contracts the second axis of both operands into a zero accumulator, so its entry `(p, q)` is the
  plain sum over `k`; the column is broadcast along rows and the row down columns; everything else is pointwise.
-/
import proofs.«154576_j46308337386063_2_alg».proof.Proof.Gen.KernelIdeal.Skeleton
import proofs.«154576_j46308337386063_2_alg».proof.Proof.LibKeepdims
import proofs.«154576_j46308337386063_2_alg».proof.Proof.Dist
import Idealize.ShloMosaic.Lib.ValueIdx
import Idealize.ShloMosaic.Lib.ValueLayout
import Idealize.ShloMosaic.Lib.Pipeline.Value
import Idealize.ShloMosaic.PureOps.Ideal.Laws

noncomputable section

namespace Cert.BodyDist

open Idealize.ShloMosaic Idealize.ShloMosaic.ValueIdx Cert.KernelIdeal Cert.KernelIdeal.Gen Cert.Dist

/-- The body's matrix product: both operands contracted along their second axis. -/
abbrev D : DotDims S1024x1024 S1024x1024 S1024x1024 := dot_S1024x1024_S1024x1024_S1024x1024_1_1_0_0_n_n

/-- The left operand's index at output index `i` and contraction index `c`: its row is `i`'s row, -/
theorem lhs_row (i : S1024x1024.Idx) (c : D.contr.Idx) : (D.lhsIdx i c 0).val = (i 0).val := by
  unfold DotDims.lhsIdx
  rw [dif_neg (show ¬(0 : Fin S1024x1024.rank) ∈ D.lhsBatch by decide),
    dif_pos (show (0 : Fin S1024x1024.rank) ∈ D.lhsNonContracting by decide)]
  rfl
/-- and its column is the contracted coordinate. -/
theorem lhs_col (i : S1024x1024.Idx) (c : D.contr.Idx) : (D.lhsIdx i c 1).val = (c ⟨0, by decide⟩).val :=
  D.lhsIdx_val_of_single rfl i c
/-- The right operand's index: its row is `i`'s COLUMN (the right operand enters transposed), -/
theorem rhs_row (i : S1024x1024.Idx) (c : D.contr.Idx) : (D.rhsIdx i c 0).val = (i 1).val := by
  unfold DotDims.rhsIdx
  rw [dif_neg (show ¬(0 : Fin S1024x1024.rank) ∈ D.rhsBatch by decide),
    dif_pos (show (0 : Fin S1024x1024.rank) ∈ D.rhsNonContracting by decide)]
  rfl
/-- and its column is the contracted coordinate. -/
theorem rhs_col (i : S1024x1024.Idx) (c : D.contr.Idx) : (D.rhsIdx i c 1).val = (c ⟨0, by decide⟩).val :=
  D.rhsIdx_val_of_single rfl i c

/-- Entry `(p, q)` of the product of `a` with the transpose of `b`, accumulated into zero, is `Σ_k a p k · b q k`:
    the left operand is read at `(p, k)` and the right at `(q, k)`, `k` the one contracted coordinate. -/
theorem matmul_entry (a b : FVec Ideal S1024x1024 .bf16) (p q : Fin 1024) :
    matmul D none a b (constant (F := Ideal) S1024x1024 .f32 0x00000000#32) (ix2 p q)
      = ∑ k : Fin 1024, a (ix2 p k) * b (ix2 q k) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun ax => Fin.ext (by
    match ax with
    | ⟨0, _⟩ => exact lhs_row _ _
    | ⟨1, _⟩ => exact (lhs_col _ _).trans hk)
  have er : D.rhsIdx (ix2 p q) ((contrEquiv1 D 1024 rfl rfl).symm k) = ix2 q k := funext fun ax => Fin.ext (by
    match ax with
    | ⟨0, _⟩ => exact rhs_row _ _
    | ⟨1, _⟩ => exact (rhs_col _ _).trans hk)
  rw [el, er]

/-- The stored value at block position `(p, q)`: one entry of the distance matrix, from the column's entry `p`, the row's
    entry `q` and the inner product of row `p` of `a` with row `q` of `b`. -/
theorem stored_entry (a b : FVec Ideal S1024x1024 .bf16) (u : FVec Ideal S1024x1 .f32) (v : FVec Ideal S1x1024 .f32)
    (p q : Fin 1024) :
    k0_pay1 (F := Ideal) a b u v (ix2 p q)
      = entry (u (ix2 p (0 : Fin 1))) (v (ix2 (0 : Fin 1) q)) (∑ k : Fin 1024, a (ix2 p k) * b (ix2 q k)) := by
  unfold k0_pay1
  simp only [shapeCast_self]
  refine Eq.trans (b := entry (broadcastTo S1024x1024 u broadcasts_S1024x1_S1024x1024 (ix2 p q))
    (broadcastTo S1024x1024 v broadcasts_S1x1024_S1024x1024 (ix2 p q))
    (matmul D none a b (constant (F := Ideal) S1024x1024 .f32 0x00000000#32) (ix2 p q))) rfl ?_
  rw [Cert.Keepdims.broadcastTo_a1_ab_apply, broadcastTo_1b_ab_apply, matmul_entry]

/-- The stored value at block position `j` is the distance matrix's entry at array index `i`, whenever the four loaded
    blocks are the matching pieces of the arguments: along row `j 0` the block `a` holds row `i 0` of `X`, along row `j 1`
    the block `b` holds row `i 1` of `Y`, and the column and the row hold the squared norms of those two rows. -/
theorem stored_eq_dist (X Y : Mat 8192 1024) (a b : FVec Ideal S1024x1024 .bf16) (u : FVec Ideal S1024x1 .f32)
    (v : FVec Ideal S1x1024 .f32) (j : S1024x1024.Idx) (i : S8192x8192.Idx)
    (ha : ∀ (y : S1024x1024.Idx) (z : S8192x1024.Idx), (y 0).val = (j 0).val → (z 0).val = (i 0).val →
      (z 1).val = (y 1).val → a y = X z)
    (hb : ∀ (y : S1024x1024.Idx) (z : S8192x1024.Idx), (y 0).val = (j 1).val → (z 0).val = (i 1).val →
      (z 1).val = (y 1).val → b y = Y z)
    (hu : ∀ y : S1024x1.Idx, (y 0).val = (j 0).val → u y = normSq X (i 0))
    (hv : ∀ y : S1x1024.Idx, (y 1).val = (j 1).val → v y = normSq Y (i 1)) :
    k0_pay1 (F := Ideal) a b u v j = dist X Y i := by
  obtain ⟨p, q, rfl⟩ : ∃ (p q : Fin 1024), j = ix2 p q := ⟨j 0, j 1, eq_ix2 j⟩
  obtain ⟨r, s, rfl⟩ : ∃ (r s : Fin 8192), i = ix2 r s := ⟨i 0, i 1, eq_ix2 i⟩
  rw [stored_entry, dist_ix2, hu (ix2 p (0 : Fin 1)) rfl, hv (ix2 (0 : Fin 1) q) rfl]
  unfold Cert.Dist.inner
  refine congrArg (entry _ _) (Finset.sum_congr rfl fun k _ => ?_)
  rw [ha (ix2 p k) (ix2 r k) rfl rfl rfl, hb (ix2 q k) (ix2 s k) rfl rfl rfl]

end Cert.BodyDist

end
-- ==== Proof.HostPrefix.lean ====
/-
  What the pallas_call's four input arrays hold when the region is entered, as functions of the two arguments.
  The host operations before the region round `x` and `y` to bf16 — the identity on extended reals — and compute
  the column of squared row norms of `x` (8192 × 1) and the row of squared row norms of `y` (1 × 8192) by the same
  operations, in the same order, as the reference's first stages: so those two arrays ARE the reference's stages,
  and are read at an index by the lemmas of that side.
-/
import proofs.«154576_j46308337386063_2_alg».proof.Proof.Gen.KernelIdeal.Frame
import proofs.«154576_j46308337386063_2_alg».proof.Proof.Gen.ReferenceIdeal.Read
import Idealize.ShloMosaic.Lib.StableHlo.Run

noncomputable section

namespace Cert.HostPrefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The left operand's array: `x` rounded to bf16, which on extended reals is `x`. -/
theorem entry_xb (c : Dev nD) :
    (V m c main_v6 : S8192x1024.Idx → EReal) = m ((c : Thread nD τ).loc main_arg0) := by
  dsimp only [V, hostOps0]; after_results; rfl

/-- The right operand's array: `y` rounded to bf16, which on extended reals is `y`. -/
theorem entry_yb (c : Dev nD) :
    (V m c main_v7 : S8192x1024.Idx → EReal) = m ((c : Thread nD τ).loc main_arg1) := by
  dsimp only [V, hostOps0]; after_results; rfl

/-- The column of squared row norms of `x`, kept as 8192 × 1: the reference's stage of the same operations. -/
theorem entry_x2 (c : Dev nD) :
    (V m c main_v2 : S8192x1.Idx → EReal)
      = Cert.ReferenceIdeal.Read.val_main_v2 (F := Ideal) (m ((c : Thread nD τ).loc main_arg0)) := by
  dsimp only [V, hostOps0]; after_results; rfl

/-- The row of squared row norms of `y`, kept as 1 × 8192: the reference's stage of the same operations. -/
theorem entry_y2 (c : Dev nD) :
    (V m c main_v5 : S1x8192.Idx → EReal)
      = Cert.ReferenceIdeal.Read.val_main_v5 (F := Ideal) (m ((c : Thread nD τ).loc main_arg1)) := by
  dsimp only [V, hostOps0]; after_results; rfl

end Cert.HostPrefix

end
-- ==== Proof.Blocks.lean ====
/-
  From the 64 blocks to the whole result array. The grid is 8 × 8; at point `(i, j)` the kernel reads rows
  `1024·i … 1024·i + 1023` of `x` (and their squared norms, a 1024 × 1 piece of the column), rows
  `1024·j … 1024·j + 1023` of `y` (and their squared norms, a 1 × 1024 piece of the row), and writes block `(i, j)` of the
  8192 × 8192 result. An element of a block sits in its array at block index × 1024 + its coordinate in the block; so
  position `(p, q)` of block `(i, j)` is array index `(1024·i + p, 1024·j + q)`, whose distance entry needs exactly row
  `1024·i + p` of `x` and row `1024·j + q` of `y`: what point `(i, j)` writes back is block `(i, j)` of the distance matrix.
  The 64 blocks tile the array (index `(r, s)` lies in block `(r / 1024, s / 1024)`), so the array ends holding the
  distance matrix of the two arguments.
-/
import proofs.«154576_j46308337386063_2_alg».proof.Proof.Gen.KernelIdeal.Value
import proofs.«154576_j46308337386063_2_alg».proof.Proof.BodyDist
import proofs.«154576_j46308337386063_2_alg».proof.Proof.HostPrefix
import proofs.«154576_j46308337386063_2_alg».proof.Proof.RefDist
import Idealize.ShloMosaic.Lib.Pipeline.Value

noncomputable section

namespace Cert.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Dist

variable (m : (ℓ : Loc nD τ sig) → Buf (Elt Ideal) ℓ) (ρ : Dev nD → PrngReg)

/-- The first argument on core `c`, as a matrix. -/
abbrev argX (c : Dev nD) : Mat 8192 1024 := m ((c : Thread nD τ).loc main_arg0)
/-- The second argument on core `c`, as a matrix. -/
abbrev argY (c : Dev nD) : Mat 8192 1024 := m ((c : Thread nD τ).loc main_arg1)

theorem zero_offsets : (![0, 0] : Fin 2 → Nat) = fun _ => 0 := funext fun a => by fin_cases a <;> rfl

/-- The printed index maps, decided once over the 64 points: the block of `x` and the piece of the column move with the
    output's block row, the block of `y` and the piece of the row with the output's block column, and every other block
    coordinate is zero. -/
theorem index_maps : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2) :=
  (by decide +kernel : ∀ t : Fin grid0.N, _)

/-- Every block of the 8 × 8 tiling is some point's. -/
theorem index_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-! ## The four input blocks, read where they sit in the arrays the region finds -/

/-- The block of the left operand at point `t` reads `x` (rounded to bf16: unchanged) where the block sits. -/
theorem read_xb (c : Dev nD) (t : Fin cfg0.N) (y : S1024x1024.Idx) :
    (iblk m c 0 t : Vec Ideal S1024x1024 .bf16) y = argX m c (((cfg0.win 0).blk t).view.emb y) := by
  show (V m c main_v6 : S8192x1024.Idx → EReal) (((cfg0.win 0).blk t).view.emb y) = _
  rw [Cert.HostPrefix.entry_xb]

/-- The block of the right operand at point `t` reads `y` where the block sits. -/
theorem read_yb (c : Dev nD) (t : Fin cfg0.N) (y : S1024x1024.Idx) :
    (iblk m c 1 t : Vec Ideal S1024x1024 .bf16) y = argY m c (((cfg0.win 1).blk t).view.emb y) := by
  show (V m c main_v7 : S8192x1024.Idx → EReal) (((cfg0.win 1).blk t).view.emb y) = _
  rw [Cert.HostPrefix.entry_yb]

/-- The piece of the column of squared norms at point `t` reads the column where the piece sits. -/
theorem read_x2 (c : Dev nD) (t : Fin cfg0.N) (y : S1024x1.Idx) :
    (iblk m c 2 t : Vec Ideal S1024x1 .f32) y
      = Cert.ReferenceIdeal.Read.val_main_v2 (F := Ideal) (argX m c) (((cfg0.win 2).blk t).view.emb y) := by
  show (V m c main_v2 : S8192x1.Idx → EReal) (((cfg0.win 2).blk t).view.emb y) = _
  rw [Cert.HostPrefix.entry_x2]

/-- The piece of the row of squared norms at point `t` reads the row where the piece sits. -/
theorem read_y2 (c : Dev nD) (t : Fin cfg0.N) (y : S1x1024.Idx) :
    (iblk m c 3 t : Vec Ideal S1x1024 .f32) y
      = Cert.ReferenceIdeal.Read.val_main_v5 (F := Ideal) (argY m c) (((cfg0.win 3).blk t).view.emb y) := by
  show (V m c main_v5 : S1x8192.Idx → EReal) (((cfg0.win 3).blk t).view.emb y) = _
  rw [Cert.HostPrefix.entry_y2]

/-! ## What a point writes back -/

/-- Point `t` writes back block `t` of the distance matrix of the two arguments. -/
theorem flushed_eq (c : Dev nD) (t : Fin cfg0.N) :
    (dats m 0 c).flushed 4 t = ((cfg0.win 4).blk t).view.read (Elt Ideal) (dist (argX m c) (argY m c)) := by
  rw [Cert.KernelIdeal.Value.flushed4]
  unfold out0_4
  rw [View.canon_unit_zero zero_offsets]
  simp only [View.ld_unit_zero (S := S1024x1024) zero_offsets, View.ld_unit_zero (S := S1024x1) zero_offsets,
    View.ld_unit_zero (S := S1x1024) zero_offsets]
  obtain ⟨a0, a1, b0, b1, u0, u1, v0, v1⟩ := index_maps t
  funext j
  show k0_pay1 (F := Ideal) (iblk m c 0 t) (iblk m c 1 t) (iblk m c 2 t) (iblk m c 3 t) j
    = dist (argX m c) (argY m c) (((cfg0.win 4).blk t).view.emb j)
  -- where position `j` of the output block sits in the result array
  have o0 : ((((cfg0.win 4).blk t).view.emb j) 0).val = win0_4.index t (0 : Fin 2) * 1024 + 1 * (j 0).val := rfl
  have o1 : ((((cfg0.win 4).blk t).view.emb j) 1).val = win0_4.index t (1 : Fin 2) * 1024 + 1 * (j 1).val := rfl
  refine Cert.BodyDist.stored_eq_dist (argX m c) (argY m c) (iblk m c 0 t) (iblk m c 1 t) (iblk m c 2 t)
    (iblk m c 3 t) j (((cfg0.win 4).blk t).view.emb j) ?_ ?_ ?_ ?_
  · -- row `j 0` of the block of `x` is row `1024·i + j 0` of `x`
    intro y z hy hz0 hz1
    rw [read_xb m c t y]
    refine congrArg (argX m c) (funext fun ax => Fin.ext ?_)
    match ax with
    | ⟨0, _⟩ => show win0_0.index t (0 : Fin 2) * 1024 + 1 * (y 0).val = (z 0).val; omega
    | ⟨1, _⟩ => show win0_0.index t (1 : Fin 2) * 1024 + 1 * (y 1).val = (z 1).val; omega
  · -- row `j 1` of the block of `y` is row `1024·j + j 1` of `y`
    intro y z hy hz0 hz1
    rw [read_yb m c t y]
    refine congrArg (argY m c) (funext fun ax => Fin.ext ?_)
    match ax with
    | ⟨0, _⟩ => show win0_1.index t (0 : Fin 2) * 1024 + 1 * (y 0).val = (z 0).val; omega
    | ⟨1, _⟩ => show win0_1.index t (1 : Fin 2) * 1024 + 1 * (y 1).val = (z 1).val; omega
  · -- entry `j 0` of the piece of the column is the squared norm of that row of `x`
    intro y hy
    rw [read_x2 m c t y]
    refine Cert.RefDist.colNorm_at (argX m c) (((cfg0.win 2).blk t).view.emb y) _ ?_
    show win0_2.index t (0 : Fin 2) * 1024 + 1 * (y 0).val = ((((cfg0.win 4).blk t).view.emb j) 0).val
    omega
  · -- entry `j 1` of the piece of the row is the squared norm of that row of `y`
    intro y hy
    rw [read_y2 m c t y]
    refine Cert.RefDist.rowNorm_at (argY m c) (((cfg0.win 3).blk t).view.emb y) _ ?_
    show win0_3.index t (1 : Fin 2) * 1024 + 1 * (y 1).val = ((((cfg0.win 4).blk t).view.emb j) 1).val
    omega

/-! ## The blocks tile the array -/

/-- An index of the result array is in point `t`'s block iff each coordinate is in the block's range on its axis. -/
theorem mem_blk (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v8).slice (win0_4.rect t)).set ↔ _
  rw [View.set_slice_whole, Rect.mem_set_unit]
  exact Iff.rfl

/-- Index `(r, s)` lies in the block of the point whose block indices are `(r / 1024, s / 1024)`. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-! ## The result array, and the run -/

/-- After the run the result array is the distance matrix of the two arguments. -/
theorem final (c : Dev nD) : (dats m 0 c).arrAt 4 cfg0.N = dist (argX m c) (argY m c) :=
  (dats m 0 c).arrAt_eq_of_cover 4 (dist (argX m c) (argY m c)) (fun t _ => flushed_eq m c t) covered

/-- Every weakly fair execution of the kernel's program terminates with the result array at the distance matrix of the
    arguments and the arguments unchanged. -/
theorem run : θ_run defs (onTc (τ := τ) (main (F := Ideal))) ⟨m, fun _ => 0, ρ⟩ fun r => ∀ c : Dev nD,
      r.2.mem ((c : Thread nD τ).loc main_v8) = dist (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Blocks

end
-- ==== Proof.lean ====
/-
  Pairwise Euclidean distances of the rows of `x` and `y` (both 8192 × 1024): the tiled kernel against the plain
  formula, equal as extended reals.

  Both programs compute, for every pair of rows `(r, s)`,
      sqrt (max ((‖x_r‖² + ‖y_s‖²) − 2 · ⟨x_r, y_s⟩) 0),
  with the same association, the same two literals (2 and 0) and the same squared norms (a row reduction started from
  the float zero). They differ only in how the work is laid out: the kernel rounds `x` and `y` to bf16 before the
  matrix product — the identity on extended reals —, computes the inner products on the matrix unit into a zero
  accumulator — the plain sum over the contracted coordinate, as the host's `dot_general` is —, and produces the
  8192 × 8192 result as an 8 × 8 tiling of 1024 × 1024 blocks, block `(i, j)` from rows `1024·i …` of `x` and rows
  `1024·j …` of `y`. No algebraic law is needed beyond reading each side at an index, so the finiteness of the inputs
  is never used.

  The modules: `Dist` states the distance matrix as one function of the two arguments; `RefDist` reads the reference's
  result as that function; `BodyDist` reads the kernel body's stored value at a block position; `HostPrefix` says what
  the four windowed arrays hold when the region is entered; `Blocks` puts the 64 blocks together into the result array
  and re-states the kernel's run. The three frames are the generated ones (the reference's is its generated run with the
  result dropped), and the idealization rewrote nothing, so that conjunct is trivial.
-/
import proofs.«154576_j46308337386063_2_alg».proof.Defs
import proofs.«154576_j46308337386063_2_alg».proof.Proof.Gen.Kernel
import proofs.«154576_j46308337386063_2_alg».proof.Proof.Gen.Kernel.Skeleton
import proofs.«154576_j46308337386063_2_alg».proof.Proof.Gen.Kernel.Launch
import proofs.«154576_j46308337386063_2_alg».proof.Proof.Gen.Kernel.Points
import proofs.«154576_j46308337386063_2_alg».proof.Proof.Gen.Kernel.Frame
import proofs.«154576_j46308337386063_2_alg».proof.Proof.Gen.KernelIdeal
import proofs.«154576_j46308337386063_2_alg».proof.Proof.Gen.KernelIdeal.Skeleton
import proofs.«154576_j46308337386063_2_alg».proof.Proof.Gen.KernelIdeal.Launch
import proofs.«154576_j46308337386063_2_alg».proof.Proof.Gen.KernelIdeal.Points
import proofs.«154576_j46308337386063_2_alg».proof.Proof.Gen.KernelIdeal.Frame
import proofs.«154576_j46308337386063_2_alg».proof.Proof.Gen.ReferenceIdeal
import proofs.«154576_j46308337386063_2_alg».proof.Proof.Gen.Pre_finite_inputs
import proofs.«154576_j46308337386063_2_alg».proof.Proof.Gen.KernelIdeal.Value
import proofs.«154576_j46308337386063_2_alg».proof.Proof.Gen.ReferenceIdeal.Run
import proofs.«154576_j46308337386063_2_alg».proof.Proof.Gen.ReferenceIdeal.Read
import proofs.«154576_j46308337386063_2_alg».proof.Proof.RefDist
import proofs.«154576_j46308337386063_2_alg».proof.Proof.Blocks
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `y` both programs end with the distance matrix of `x` and `y` in their result
    arrays: the kernel's 64 blocks tile it, and the reference's last stage, read at an index, is its entry. -/
theorem algebraic : Cert.algebraic_KernelIdeal_ReferenceIdeal := by
  intro m ρ m' ρ' _ hagree
  refine ⟨fun c => Cert.Dist.dist (Cert.Blocks.argX m c) (Cert.Blocks.argY m c), Cert.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.RefDist.stage_eq_dist, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
